-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S4x2048x4096 .f32) (main_arg1 : FVec F S16384x4096 .f32) (main_arg2 : FVec F S16384 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S1024x1024 : Shape := ⟨2, ![1024, 1024]⟩
abbrev S2048x1024 : Shape := ⟨2, ![2048, 1024]⟩
abbrev S1x2048 : Shape := ⟨2, ![1, 2048]⟩
abbrev S1024x2048 : Shape := ⟨2, ![1024, 2048]⟩
abbrev S4x2048x16384 : Shape := ⟨3, ![4, 2048, 16384]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S16384, .f32⟩
  | .hbm, ⟨4, _⟩ => ⟨S8192x4096, .f32⟩
  | .hbm, ⟨5, _⟩ => ⟨S8192x4096, .bf16⟩
  | .hbm, ⟨6, _⟩ => ⟨S16384x4096, .bf16⟩
  | .hbm, ⟨7, _⟩ => ⟨S1x16384, .f32⟩
  | .hbm, ⟨8, _⟩ => ⟨S1x16384, .f32⟩
  | .hbm, ⟨9, _⟩ => ⟨S8192x16384, .f32⟩
  | .hbm, ⟨10, _⟩ => ⟨S4x2048x16384, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S16384_S1x16384 : S16384.ShapeCasts S1x16384
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x16384_S4x2048x16384 : S8192x16384.ShapeCasts S4x2048x16384
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x4096.size a
  hwx0_1 : ∀ i : grid0.Coords, EltTy.bits .bf16 = 32 ∨ (Rect.block (s := S16384x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .f32 = 32 ∨ (Rect.block (s := S1x16384) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x16384.size a
  hwx0_4 : ∀ i : grid0.Coords, EltTy.bits .f32 = 32 ∨ (Rect.block (s := S8192x16384) S1024x2048.size (cc0_transform_4 i) (hinb0_4 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S4x2048x16384 : Shape := ⟨3, ![4, 2048, 16384]⟩
abbrev S1x1x16384 : Shape := ⟨3, ![1, 1, 16384]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S16384, .f32⟩
  | .hbm, ⟨4, _⟩ => ⟨S16384x1, .f32⟩
  | .hbm, ⟨5, _⟩ => ⟨S16384x4096, .f32⟩
  | .hbm, ⟨6, _⟩ => ⟨S16384x4096, .f32⟩
  | .hbm, ⟨7, _⟩ => ⟨S4x2048x16384, .f32⟩
  | .hbm, ⟨8, _⟩ => ⟨S1x1x16384, .f32⟩
  | .hbm, ⟨9, _⟩ => ⟨S4x2048x16384, .f32⟩
  | .hbm, ⟨10, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.Payloads.lean ====
/-
  What the body's three stores hold, entry by entry, over the extended reals.

  The body keeps a 1024 × 2048 tile of the output in its staging buffer across the four steps of the contracted axis.
  The first store fills the tile with zeros. The second adds to the tile the product of a 1024 × 1024 block of the
  activations with the rows of a 2048 × 1024 block of the quantized weights, both contracted on their second axis: at
  `(p, q)` it adds the sum over `c` of `x (p, c) · w (q, c)`. The third multiplies entry `(p, q)` by the scale of output
  channel `q` and adds that channel's bias, the two rows being copied down the 1024 rows of the tile.
-/
import proofs.«143259_j26182120637007_2_alg».proof.Proof.Gen.KernelIdeal.Skeleton
import proofs.«143259_j26182120637007_2_alg».proof.Proof.LibRowsTimesRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen

/-- The reset stores zero everywhere. -/
theorem pay1_apply (p : Fin 1024) (q : Fin 2048) : k0_pay1 (F := Ideal) (ix2 p q) = 0 :=
  Ideal.ofBits_zero_f32

/-- One step of the accumulation: the tile's entry plus the block's contribution to the contraction. -/
theorem pay2_apply (acc : Vec Ideal S1024x2048 .f32) (x : Vec Ideal S1024x1024 .bf16) (w : Vec Ideal S2048x1024 .bf16)
    (p : Fin 1024) (q : Fin 2048) :
    k0_pay2 (F := Ideal) acc x w (ix2 p q) = acc (ix2 p q) + ∑ c : Fin 1024, x (ix2 p c) * w (ix2 q c) := by
  unfold k0_pay2
  show shapeCast S1024x2048 acc _ (ix2 p q)
      + FloatOps.matmul dot_S1024x1024_S2048x1024_S1024x2048_1_1_0_0_n_n none (shapeCast S1024x1024 x _) (shapeCast S2048x1024 w _)
          (constant (F := Ideal) S1024x2048 .f32 0x00000000#32) (ix2 p q) = _
  rw [shapeCast_self, shapeCast_self, shapeCast_self]
  exact congrArg (acc (ix2 p q) + ·)
    (Cert.RowsTimesRows.rowsMatmul_zero_apply (R := 1024) (n := 1024) (k := 2048)
      Facts₀.dot_S1024x1024_S2048x1024_S1024x2048_1_1_0_0_n_n_wf none x w p q)

/-- The last step: scale the tile's entry by its output channel's scale and add that channel's bias. -/
theorem pay3_apply (acc : Vec Ideal S1024x2048 .f32) (s b : Vec Ideal S1x2048 .f32) (p : Fin 1024) (q : Fin 2048) :
    k0_pay3 (F := Ideal) acc s b (ix2 p q) = acc (ix2 p q) * s (ix2 (0 : Fin 1) q) + b (ix2 (0 : Fin 1) q) := by
  unfold k0_pay3
  show shapeCast S1024x2048 acc _ (ix2 p q) * broadcastTo S1024x2048 (shapeCast S1x2048 s _) _ (ix2 p q)
      + broadcastTo S1024x2048 (shapeCast S1x2048 b _) _ (ix2 p q) = _
  rw [shapeCast_self, shapeCast_self, shapeCast_self, broadcastTo_1b_ab_apply, broadcastTo_1b_ab_apply]

end Cert.KernelIdeal.Tile

end
-- ==== Proof.Pieces.lean ====
/-
  What each of the body's three control cases leaves in the output tile's staging buffer, as a value.

  The tile is stored whole every time, so what a case leaves is the payload of its last store; a load of the tile that
  follows a store of the same case reads that store's payload, and a load that precedes every store reads what the
  step before left. At the first step of the contracted axis the body resets the tile and adds the first block's
  contribution; at a middle step it adds a block's contribution to the tile it finds; at the last step it adds the last
  block's contribution and then scales and shifts the tile.
-/
import proofs.«143259_j26182120637007_2_alg».proof.Proof.Gen.KernelIdeal.Frame
import Idealize.ShloMosaic.Lib.Pipeline.Value
import Idealize.ShloMosaic.Lib.Tactic

noncomputable section

namespace Cert.KernelIdeal.Tile

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- A middle step: the tile found in the buffer, plus this block's contribution. -/
theorem out_B (c : Dev nD) (i : grid0.Coords) (a3 : Memref sig .tc .vmem S1024x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S1x2048 .f32) (h6 : a6.IsWhole) (a7 : Memref sig .tc .vmem S1024x2048 .f32) (h7 : a7.IsWhole)
    (hc0 : ¬cond0_0 i) (hc1 : ¬cond0_1 i)
    (x0 : Vec F S1024x1024 .bf16) (x1 : Vec F S2048x1024 .bf16) (x2 : Vec F S1x2048 .f32) (x3 : Vec F S1x2048 .f32)
    (xo : Vec F S1024x2048 .f32) :
    out0_B_4 c i a3 h3 a4 h4 a5 h5 a6 h6 a7 h7 hc0 hc1 x0 x1 x2 x3 xo = k0_pay2 xo x0 x1 := by
  unfold out0_B_4
  rw [View.read_writes_eq_canon _ _ _ (cover0_B_4 c i a3 h3 a4 h4 a5 h5 a6 h6 a7 h7 hc0 hc1 x0 x1 x2 x3 xo)]
  unfold kernelRun0_B
  dsimp only
  rw [View.canon_unit_zero hz]
  simp only [View.readAt_eq_ld, h3.read_unread, h4.read_unread, h5.read_unread, h6.read_unread, h7.read_unread,
    View.ld_unit_zero (S := S1024x2048) hz, View.ld_unit_zero (S := S1024x1024) hz, View.ld_unit_zero (S := S2048x1024) hz,
    View.ld_unit_zero (S := S1x2048) hz]

/-- The first step: the tile is reset to zero, read back, and the first block's contribution added. -/
theorem out_A (c : Dev nD) (i : grid0.Coords) (a3 : Memref sig .tc .vmem S1024x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S1x2048 .f32) (h6 : a6.IsWhole) (a7 : Memref sig .tc .vmem S1024x2048 .f32) (h7 : a7.IsWhole)
    (hc0 : cond0_0 i) (hc1 : ¬cond0_1 i)
    (x0 : Vec F S1024x1024 .bf16) (x1 : Vec F S2048x1024 .bf16) (x2 : Vec F S1x2048 .f32) (x3 : Vec F S1x2048 .f32) :
    out0_A_4 c i a3 h3 a4 h4 a5 h5 a6 h6 a7 h7 hc0 hc1 x0 x1 x2 x3 = k0_pay2 k0_pay1 x0 x1 := by
  unfold out0_A_4
  rw [View.read_writes_eq_canon _ _ _ (cover0_A_4 c i a3 h3 a4 h4 a5 h5 a6 h6 a7 h7 hc0 hc1 x0 x1 x2 x3)]
  unfold kernelRun0_A
  dsimp only
  sl_unfold_words
  rw [View.canon_cons_unit_zero (S := S1024x2048) hz, View.readCov_unit_zero (S := S1024x2048) _ hz]
  simp only [View.readAt_eq_ld, h3.read_unread, h4.read_unread, h5.read_unread, h6.read_unread, h7.read_unread,
    View.ld_unit_zero (S := S1024x2048) hz, View.ld_unit_zero (S := S1024x1024) hz, View.ld_unit_zero (S := S2048x1024) hz,
    View.ld_unit_zero (S := S1x2048) hz]

/-- The last step: the last block's contribution is added, the tile read back, scaled and shifted. -/
theorem out_C (c : Dev nD) (i : grid0.Coords) (a3 : Memref sig .tc .vmem S1024x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S1x2048 .f32) (h6 : a6.IsWhole) (a7 : Memref sig .tc .vmem S1024x2048 .f32) (h7 : a7.IsWhole)
    (hc0 : ¬cond0_0 i) (hc1 : cond0_1 i)
    (x0 : Vec F S1024x1024 .bf16) (x1 : Vec F S2048x1024 .bf16) (x2 : Vec F S1x2048 .f32) (x3 : Vec F S1x2048 .f32)
    (xo : Vec F S1024x2048 .f32) :
    out0_C_4 c i a3 h3 a4 h4 a5 h5 a6 h6 a7 h7 hc0 hc1 x0 x1 x2 x3 xo = k0_pay3 (k0_pay2 xo x0 x1) x2 x3 := by
  unfold out0_C_4
  rw [View.read_writes_eq_canon _ _ _ (cover0_C_4 c i a3 h3 a4 h4 a5 h5 a6 h6 a7 h7 hc0 hc1 x0 x1 x2 x3 xo)]
  unfold kernelRun0_C
  dsimp only
  sl_unfold_words
  rw [View.canon_cons_unit_zero (S := S1024x2048) hz, View.readCov_unit_zero (S := S1024x2048) _ hz]
  simp only [View.readAt_eq_ld, h3.read_unread, h4.read_unread, h5.read_unread, h6.read_unread, h7.read_unread,
    View.ld_unit_zero (S := S1024x2048) hz, View.ld_unit_zero (S := S1024x1024) hz, View.ld_unit_zero (S := S2048x1024) hz,
    View.ld_unit_zero (S := S1x2048) hz]

end Cert.KernelIdeal.Tile

end
-- ==== Proof.Blocks.lean ====
/-
  Which entries of the arrays each window's block holds at a grid point.

  The grid has 8 row blocks of 1024 rows, 8 column blocks of 2048 output channels and 4 steps of 1024 positions of the
  contracted axis, visited with the contracted axis innermost, so point `t` is row block `t / 32`, column block
  `t / 4 % 8`, step `t % 4`. A block's entry `y` is the array's entry at (block index) × (block size) + `y` on each axis.
-/
import proofs.«143259_j26182120637007_2_alg».proof.Proof.Gen.KernelIdeal.Frame
import Idealize.ShloMosaic.Lib.Pipeline.Value
import Idealize.ShloMosaic.Lib.ValueIdx

noncomputable section

namespace Cert.KernelIdeal.Tile

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- Where each window's block sits at grid point `t`, the points numbered row block first, then column block, then
    step of the contracted axis (8 × 8 × 4): decided once over the 256 points. -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = 0 ∧ win0_2.index t (1 : Fin 2) = t.val / 4 % 8
    ∧ win0_3.index t (0 : Fin 2) = 0 ∧ win0_3.index t (1 : Fin 2) = t.val / 4 % 8
    ∧ win0_4.index t (0 : Fin 2) = t.val / 32 ∧ win0_4.index t (1 : Fin 2) = t.val / 4 % 8 :=
  (by decide +kernel : ∀ t : Fin grid0.N, _)

/-- The activations' block at point `t`: rows `1024 · (t / 32) + p`, columns `1024 · (t % 4) + c`. -/
theorem xblock_apply (c : Dev nD) (t : Fin cfg0.N) (p e : Fin 1024) (r : Fin 8192) (k : Fin 4096)
    (hr : r.val = 1024 * (t.val / 32) + p.val) (hk : k.val = 1024 * (t.val % 4) + e.val) :
    (iblk m c 0 t : Vec F S1024x1024 .bf16) (ix2 p e) = V m c main_v1 (ix2 r k) := by
  obtain ⟨e0, e1, -⟩ := idx_facts t
  unfold iblk
  rw [View.read_apply]
  show V m c main_v1 _ = V m c main_v1 _
  refine congrArg (V m c main_v1) (funext fun a => Fin.ext ?_)
  match a with
  | ⟨0, _⟩ => show win0_0.index t 0 * 1024 + 1 * p.val = r.val; rw [e0, hr]; omega
  | ⟨1, _⟩ => show win0_0.index t 1 * 1024 + 1 * e.val = k.val; rw [e1, hk]; omega

/-- The weights' block at point `t`: rows (output channels) `2048 · (t / 4 % 8) + q`, columns `1024 · (t % 4) + c`. -/
theorem wblock_apply (c : Dev nD) (t : Fin cfg0.N) (q : Fin 2048) (e : Fin 1024) (o : Fin 16384) (k : Fin 4096)
    (ho : o.val = 2048 * (t.val / 4 % 8) + q.val) (hk : k.val = 1024 * (t.val % 4) + e.val) :
    (iblk m c 1 t : Vec F S2048x1024 .bf16) (ix2 q e) = V m c main_v2 (ix2 o k) := by
  obtain ⟨-, -, e0, e1, -⟩ := idx_facts t
  unfold iblk
  rw [View.read_apply]
  show V m c main_v2 _ = V m c main_v2 _
  refine congrArg (V m c main_v2) (funext fun a => Fin.ext ?_)
  match a with
  | ⟨0, _⟩ => show win0_1.index t 0 * 2048 + 1 * q.val = o.val; rw [e0, ho]; omega
  | ⟨1, _⟩ => show win0_1.index t 1 * 1024 + 1 * e.val = k.val; rw [e1, hk]; omega

/-- The scales' block at point `t`: the one row, columns `2048 · (t / 4 % 8) + q`. -/
theorem sblock_apply (c : Dev nD) (t : Fin cfg0.N) (q : Fin 2048) (o : Fin 16384)
    (ho : o.val = 2048 * (t.val / 4 % 8) + q.val) :
    (iblk m c 2 t : Vec F S1x2048 .f32) (ix2 (0 : Fin 1) q) = V m c main_v3 (ix2 (0 : Fin 1) o) := by
  obtain ⟨-, -, -, -, e0, e1, -⟩ := idx_facts t
  unfold iblk
  rw [View.read_apply]
  show V m c main_v3 _ = V m c main_v3 _
  refine congrArg (V m c main_v3) (funext fun a => Fin.ext ?_)
  match a with
  | ⟨0, _⟩ => show win0_2.index t 0 * 1 + 1 * 0 = 0; rw [e0]
  | ⟨1, _⟩ => show win0_2.index t 1 * 2048 + 1 * q.val = o.val; rw [e1, ho]; omega

/-- The biases' block at point `t`: the one row, columns `2048 · (t / 4 % 8) + q`. -/
theorem bblock_apply (c : Dev nD) (t : Fin cfg0.N) (q : Fin 2048) (o : Fin 16384)
    (ho : o.val = 2048 * (t.val / 4 % 8) + q.val) :
    (iblk m c 3 t : Vec F S1x2048 .f32) (ix2 (0 : Fin 1) q) = V m c main_v4 (ix2 (0 : Fin 1) o) := by
  obtain ⟨-, -, -, -, -, -, e0, e1, -⟩ := idx_facts t
  unfold iblk
  rw [View.read_apply]
  show V m c main_v4 _ = V m c main_v4 _
  refine congrArg (V m c main_v4) (funext fun a => Fin.ext ?_)
  match a with
  | ⟨0, _⟩ => show win0_3.index t 0 * 1 + 1 * 0 = 0; rw [e0]
  | ⟨1, _⟩ => show win0_3.index t 1 * 2048 + 1 * q.val = o.val; rw [e1, ho]; omega

end Cert.KernelIdeal.Tile

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.LibScaledSum.lean ====
/-
  A per-output scale applied after a contraction, and an accumulator that adds one block of the contraction per step.

  Over the reals a factor `s` moves across a finite sum: `(Σ_k x_k · w_k) · s = Σ_k x_k · (w_k · s)` (distributivity and
  associativity of the product). Over the extended reals distributivity fails at the infinities, so the same identity
  is stated for families whose entries are all real numbers: the coercion from the reals commutes with products and
  with finite sums (it is an additive monoid homomorphism), and the extended-real identity is the image of the real one.
  This is what joins "scale the accumulated product of quantized weights" to "dequantize the weights, then contract".

  The second half is the running total of an accumulator that starts from a zero `z` and adds the sum over one more
  block of the contracted axis per step: after step `k` it holds the sum over the blocks `0 … k`, hence after the last
  block the sum over the whole axis. Only associativity and commutativity of the addition are used there.
-/
import Mathlib.Data.EReal.Basic
import Mathlib.Algebra.BigOperators.Ring.Finset
import proofs.«143259_j26182120637007_2_alg».proof.Proof.LibBlockedSum

noncomputable section

namespace ScaledSum

open Finset BlockedSum

/-- The coercion of the reals into the extended reals, as a homomorphism of additive monoids. -/
def coeHom : ℝ →+ EReal := ⟨⟨fun r => (r : EReal), EReal.coe_zero⟩, EReal.coe_add⟩

/-- So it commutes with finite sums. -/
theorem coe_sum {ι : Type*} (s : Finset ι) (f : ι → ℝ) :
    ((∑ i ∈ s, f i : ℝ) : EReal) = ∑ i ∈ s, ((f i : ℝ) : EReal) :=
  map_sum coeHom f s

/-- Over the reals a factor moves across a contraction. -/
theorem scale_real {ι : Type*} (t : Finset ι) (x w : ι → ℝ) (s : ℝ) :
    (∑ k ∈ t, x k * w k) * s = ∑ k ∈ t, x k * (w k * s) := by
  rw [Finset.sum_mul]
  exact Finset.sum_congr rfl fun k _ => mul_assoc _ _ _

/-- The same over the extended reals when every entry and the factor are real numbers. -/
theorem scale_ereal {ι : Type*} (t : Finset ι) (x w : ι → EReal) (s : EReal)
    (hx : ∀ k, ∃ r : ℝ, x k = (r : EReal)) (hw : ∀ k, ∃ r : ℝ, w k = (r : EReal)) (hs : ∃ r : ℝ, s = (r : EReal)) :
    (∑ k ∈ t, x k * w k) * s = ∑ k ∈ t, x k * (w k * s) := by
  choose X hX using hx
  choose W hW using hw
  obtain ⟨S, rfl⟩ := hs
  obtain rfl : x = fun k => ((X k : ℝ) : EReal) := funext hX
  obtain rfl : w = fun k => ((W k : ℝ) : EReal) := funext hW
  simp only [← EReal.coe_mul, ← coe_sum]
  exact congrArg _ (scale_real t X W S)

variable {M : Type*} [AddCommMonoid M] {n : ℕ}

/-- An accumulator started at `z` that adds the sum over block `k` at step `k`. -/
def runningTotal (hn : 0 < n) (bs : ℕ) (g : Fin n → M) (z : M) : ℕ → M
  | 0 => z + blockSum hn bs g 0
  | k + 1 => runningTotal hn bs g z k + blockSum hn bs g (k + 1)

/-- Started at zero it holds, after step `k`, the sum over the blocks `0 … k`. -/
theorem runningTotal_eq_partialSum (hn : 0 < n) (bs : ℕ) (g : Fin n → M) {z : M} (hz : z = 0) :
    ∀ k, runningTotal hn bs g z k = partialSum hn bs g k
  | 0 => by rw [runningTotal, hz, zero_add, partialSum_zero]
  | k + 1 => by rw [runningTotal, runningTotal_eq_partialSum hn bs g hz k, partialSum_succ]

/-- After the last block it holds the sum over the whole axis. -/
theorem runningTotal_last {nb bs : ℕ} (hn : 0 < n) (h : nb * bs = n) (g : Fin n → M) {z : M} (hz : z = 0) {k : ℕ}
    (hk : k + 1 = nb) : runningTotal hn bs g z k = ∑ i : Fin n, g i :=
  (runningTotal_eq_partialSum hn bs g hz k).trans (partialSum_last hn h g hk)

end ScaledSum

end
-- ==== Proof.TileSums.lean ====
/-
  The arithmetic of one output entry of the quantized linear layer, over the extended reals.

  For a row `r` of the flattened activations `X` (8192 × 4096) and an output channel `o` of the quantized weights `W`
  (16384 × 4096), the contraction's term at position `k` is `X (r, k) · W (o, k)`. The contracted axis is visited in four
  blocks of 1024 positions. The output tile's entry starts at zero and receives one block's sum per step
  (`partialAt`); after the fourth block it holds the whole contraction, and it is then multiplied by the channel's scale
  and shifted by the channel's bias (`finalAt`). Nothing here needs an entry to be finite: only the order of the
  additions changes.
-/
import Idealize.ShloMosaic.PureOps.Ideal
import Idealize.ShloMosaic.Lib.ValueIdx
import proofs.«143259_j26182120637007_2_alg».proof.Proof.LibScaledSum

noncomputable section

namespace QuantLinear

open Idealize.ShloMosaic Idealize.ShloMosaic.ValueIdx BlockedSum ScaledSum

theorem pos4096 : 0 < 4096 := by decide
theorem blocks4096 : 4 * 1024 = 4096 := rfl

/-- The contraction's term at position `k`, for row `r` and output channel `o`. -/
def term (X : (⟨2, ![8192, 4096]⟩ : Shape).Idx → EReal) (W : (⟨2, ![16384, 4096]⟩ : Shape).Idx → EReal)
    (r : Fin 8192) (o : Fin 16384) : Fin 4096 → EReal :=
  fun k => X (ix2 r k) * W (ix2 o k)

/-- The tile's entry after step `j` of the contracted axis: zero plus the sums over the blocks `0 … j`. -/
def partialAt (X : (⟨2, ![8192, 4096]⟩ : Shape).Idx → EReal) (W : (⟨2, ![16384, 4096]⟩ : Shape).Idx → EReal)
    (r : Fin 8192) (o : Fin 16384) (j : ℕ) : EReal :=
  runningTotal pos4096 1024 (term X W r o) 0 j

/-- The finished entry: the whole contraction, scaled per output channel, plus the channel's bias. -/
def finalAt (X : (⟨2, ![8192, 4096]⟩ : Shape).Idx → EReal) (W : (⟨2, ![16384, 4096]⟩ : Shape).Idx → EReal)
    (S B : (⟨2, ![1, 16384]⟩ : Shape).Idx → EReal) (r : Fin 8192) (o : Fin 16384) : EReal :=
  (∑ k : Fin 4096, term X W r o k) * S (ix2 (0 : Fin 1) o) + B (ix2 (0 : Fin 1) o)

/-- A 1024 × 1024 block `xb` of `X` and a 2048 × 1024 block `wb` of `W` that sit at step `j` of the contracted axis, and
    hold row `r` at `p` and channel `o` at `q`, contribute the sum over block `j` of the contraction's terms. -/
theorem block_contribution (X : (⟨2, ![8192, 4096]⟩ : Shape).Idx → EReal) (W : (⟨2, ![16384, 4096]⟩ : Shape).Idx → EReal)
    (xb : (⟨2, ![1024, 1024]⟩ : Shape).Idx → EReal) (wb : (⟨2, ![2048, 1024]⟩ : Shape).Idx → EReal)
    (r : Fin 8192) (o : Fin 16384) (p : Fin 1024) (q : Fin 2048) (j : ℕ) (hj : j < 4)
    (hx : ∀ (e : Fin 1024) (k : Fin 4096), k.val = 1024 * j + e.val → xb (ix2 p e) = X (ix2 r k))
    (hw : ∀ (e : Fin 1024) (k : Fin 4096), k.val = 1024 * j + e.val → wb (ix2 q e) = W (ix2 o k)) :
    ∑ e : Fin 1024, xb (ix2 p e) * wb (ix2 q e) = blockSum pos4096 1024 (term X W r o) j := by
  unfold blockSum term
  refine Finset.sum_congr rfl fun e _ => ?_
  have hk := blkIdx_val pos4096 blocks4096 hj e
  rw [hx e _ hk, hw e _ hk]

/-- The first step leaves zero plus the first block's sum. -/
theorem first_step (X : (⟨2, ![8192, 4096]⟩ : Shape).Idx → EReal) (W : (⟨2, ![16384, 4096]⟩ : Shape).Idx → EReal)
    (r : Fin 8192) (o : Fin 16384) :
    (0 : EReal) + blockSum pos4096 1024 (term X W r o) 0 = partialAt X W r o 0 := rfl

/-- A later step adds the next block's sum. -/
theorem next_step (X : (⟨2, ![8192, 4096]⟩ : Shape).Idx → EReal) (W : (⟨2, ![16384, 4096]⟩ : Shape).Idx → EReal)
    (r : Fin 8192) (o : Fin 16384) (j : ℕ) :
    partialAt X W r o j + blockSum pos4096 1024 (term X W r o) (j + 1) = partialAt X W r o (j + 1) := rfl

/-- After the fourth block the entry is the whole contraction; scaled and shifted it is the finished entry. -/
theorem last_step (X : (⟨2, ![8192, 4096]⟩ : Shape).Idx → EReal) (W : (⟨2, ![16384, 4096]⟩ : Shape).Idx → EReal)
    (S B : (⟨2, ![1, 16384]⟩ : Shape).Idx → EReal) (r : Fin 8192) (o : Fin 16384) :
    (partialAt X W r o 2 + blockSum pos4096 1024 (term X W r o) 3) * S (ix2 (0 : Fin 1) o) + B (ix2 (0 : Fin 1) o)
      = finalAt X W S B r o := by
  rw [next_step X W r o 2]
  unfold partialAt finalAt
  rw [runningTotal_last pos4096 blocks4096 (term X W r o) rfl (show 3 + 1 = 4 from rfl)]

end QuantLinear

end
-- ==== Proof.Accumulate.lean ====
/-
  What the output tile's staging buffer holds after each grid point, entry by entry.

  Point `n` works on row block `n / 32`, column block `n / 4 % 8` and step `n % 4` of the contracted axis. By induction on
  the point: after a step that is not the last, entry `(p, q)` of the tile is the running total of the contraction for
  row `1024 · (n / 32) + p` and output channel `2048 · (n / 4 % 8) + q` over the blocks visited so far; after the last step
  it is the whole contraction scaled by the channel's scale plus the channel's bias. A step that is not the first reads
  the tile the point before left, which belongs to the same row and column block.
-/
import proofs.«143259_j26182120637007_2_alg».proof.Proof.Payloads
import proofs.«143259_j26182120637007_2_alg».proof.Proof.Pieces
import proofs.«143259_j26182120637007_2_alg».proof.Proof.Blocks
import proofs.«143259_j26182120637007_2_alg».proof.Proof.TileSums

noncomputable section

namespace Cert.KernelIdeal.Tile

open Idealize.ShloMosaic Idealize.ShloMosaic.TcCoe Idealize.ShloMosaic.ValueIdx Idealize.SL.Sem Cert.KernelIdeal Cert.KernelIdeal.Gen
open QuantLinear BlockedSum

variable (m : (ℓ : Loc nD τ sig) → Buf (Elt Ideal) ℓ)

/-- The four arrays as the region finds them: flattened activations, quantized weights, the scale row, the bias row. -/
abbrev arrX (c : Dev nD) : (⟨2, ![8192, 4096]⟩ : Shape).Idx → EReal := V m c main_v1
abbrev arrW (c : Dev nD) : (⟨2, ![16384, 4096]⟩ : Shape).Idx → EReal := V m c main_v2
abbrev arrS (c : Dev nD) : (⟨2, ![1, 16384]⟩ : Shape).Idx → EReal := V m c main_v3
abbrev arrB (c : Dev nD) : (⟨2, ![1, 16384]⟩ : Shape).Idx → EReal := V m c main_v4

/-- The point's blocks of activations and weights, as arrays of extended reals. -/
abbrev xblk (c : Dev nD) (t : Fin cfg0.N) : (⟨2, ![1024, 1024]⟩ : Shape).Idx → EReal := iblk m c 0 t
abbrev wblk (c : Dev nD) (t : Fin cfg0.N) : (⟨2, ![2048, 1024]⟩ : Shape).Idx → EReal := iblk m c 1 t

/-- The sum over the point's blocks of activations and weights is the sum over block `n % 4` of the contraction's terms. -/
theorem point_contribution (c : Dev nD) (t : Fin cfg0.N) (p : Fin 1024) (q : Fin 2048) (r : Fin 8192) (o : Fin 16384)
    (hr : r.val = 1024 * (t.val / 32) + p.val) (ho : o.val = 2048 * (t.val / 4 % 8) + q.val) :
    ∑ e : Fin 1024, xblk m c t (ix2 p e) * wblk m c t (ix2 q e)
      = blockSum pos4096 1024 (term (arrX m c) (arrW m c) r o) (t.val % 4) :=
  block_contribution (arrX m c) (arrW m c) (xblk m c t) (wblk m c t) r o p q (t.val % 4) (Nat.mod_lt _ (by decide))
    (fun e k hk => xblock_apply m c t p e r k hr hk) (fun e k hk => wblock_apply m c t q e o k ho hk)

/-- The tile after point `n`. -/
theorem outsAt_eq (c : Dev nD) : ∀ (n : ℕ) (h : n < cfg0.N) (p : Fin 1024) (q : Fin 2048) (r : Fin 8192) (o : Fin 16384),
    r.val = 1024 * (n / 32) + p.val → o.val = 2048 * (n / 4 % 8) + q.val →
    outsAt0 m c n h (ix2 p q)
      = if n % 4 = 3 then finalAt (arrX m c) (arrW m c) (arrS m c) (arrB m c) r o else partialAt (arrX m c) (arrW m c) r o (n % 4)
  | 0, h, p, q, r, o, hr, ho => by
    have h0 : (⟨0, h⟩ : Fin cfg0.N).val % 4 = 0 := rfl
    have h1 : ¬(⟨0, h⟩ : Fin cfg0.N).val % 4 = 3 := by show ¬(0 % 4 = 3); decide
    rw [if_neg (by decide)]
    refine (congrFun (outsAt0_A m c ⟨0, h⟩ h0 h1) (ix2 p q)).trans ?_
    refine (congrFun (out_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩)) (ix2 p q)).trans ?_
    refine (pay2_apply (k0_pay1 (F := Ideal)) (iblk m c 0 ⟨0, h⟩) (iblk m c 1 ⟨0, h⟩) p q).trans ?_
    refine (congrArg₂ (· + ·) (pay1_apply p q) (point_contribution m c ⟨0, h⟩ p q r o hr ho)).trans ?_
    exact first_step (arrX m c) (arrW m c) r o
  | n + 1, h, p, q, r, o, hr, ho => by
    have hN : n + 1 < 256 := lt_of_lt_of_eq h (show cfg0.N = 256 from N_0)
    by_cases h0 : (n + 1) % 4 = 0
    · have h1 : ¬(n + 1) % 4 = 3 := by omega
      rw [if_neg h1]
      refine (congrFun (outsAt0_A m c ⟨n + 1, h⟩ h0 h1) (ix2 p q)).trans ?_
      refine (congrFun (out_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)) (ix2 p q)).trans ?_
      refine (pay2_apply (k0_pay1 (F := Ideal)) (iblk m c 0 ⟨n + 1, h⟩) (iblk m c 1 ⟨n + 1, h⟩) p q).trans ?_
      refine (congrArg₂ (· + ·) (pay1_apply p q) (point_contribution m c ⟨n + 1, h⟩ p q r o hr ho)).trans ?_
      show (0 : EReal) + blockSum pos4096 1024 (term (arrX m c) (arrW m c) r o) ((n + 1) % 4) = _
      rw [h0]
      exact first_step (arrX m c) (arrW m c) r o
    · have hn3 : ¬n % 4 = 3 := by omega
      have hr' : r.val = 1024 * (n / 32) + p.val := by omega
      have ho' : o.val = 2048 * (n / 4 % 8) + q.val := by omega
      have hprev := outsAt_eq c n (Nat.lt_of_succ_lt h) p q r o hr' ho'
      rw [if_neg hn3] at hprev
      have hstep : (n + 1) % 4 = n % 4 + 1 := by omega
      by_cases h1 : (n + 1) % 4 = 3
      · rw [if_pos h1]
        refine (congrFun (outsAt0_C m c ⟨n + 1, h⟩ h0 h1) (ix2 p q)).trans ?_
        refine (congrFun (out_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h))) (ix2 p q)).trans ?_
        refine (pay3_apply (k0_pay2 (outsAt0 m c n (Nat.lt_of_succ_lt h)) (iblk m c 0 ⟨n + 1, h⟩) (iblk m c 1 ⟨n + 1, h⟩)) (iblk m c 2 ⟨n + 1, h⟩) (iblk m c 3 ⟨n + 1, h⟩) p q).trans ?_
        refine (congrArg₂ (· + ·) (congrArg₂ (· * ·)
          ((pay2_apply (outsAt0 m c n (Nat.lt_of_succ_lt h)) (iblk m c 0 ⟨n + 1, h⟩) (iblk m c 1 ⟨n + 1, h⟩) p q).trans
            (congrArg₂ (· + ·) hprev (point_contribution m c ⟨n + 1, h⟩ p q r o hr ho)))
          (sblock_apply m c ⟨n + 1, h⟩ q o ho)) (bblock_apply m c ⟨n + 1, h⟩ q o ho)).trans ?_
        have hn2 : n % 4 = 2 := by omega
        show (partialAt (arrX m c) (arrW m c) r o (n % 4) + blockSum pos4096 1024 (term (arrX m c) (arrW m c) r o) ((n + 1) % 4))
            * arrS m c (ix2 (0 : Fin 1) o) + arrB m c (ix2 (0 : Fin 1) o) = _
        rw [h1, hn2]
        exact last_step (arrX m c) (arrW m c) (arrS m c) (arrB m c) r o
      · rw [if_neg h1]
        refine (congrFun (outsAt0_B m c ⟨n + 1, h⟩ h0 h1) (ix2 p q)).trans ?_
        refine (congrFun (out_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h))) (ix2 p q)).trans ?_
        refine (pay2_apply (outsAt0 m c n (Nat.lt_of_succ_lt h)) (iblk m c 0 ⟨n + 1, h⟩) (iblk m c 1 ⟨n + 1, h⟩) p q).trans ?_
        refine (congrArg₂ (· + ·) hprev (point_contribution m c ⟨n + 1, h⟩ p q r o hr ho)).trans ?_
        show partialAt (arrX m c) (arrW m c) r o (n % 4) + blockSum pos4096 1024 (term (arrX m c) (arrW m c) r o) ((n + 1) % 4) = _
        rw [hstep]
        exact next_step (arrX m c) (arrW m c) r o (n % 4)

end Cert.KernelIdeal.Tile

end
-- ==== Proof.KernelValue.lean ====
/-
  The array the region writes, and the program's result, as functions of the arrays the region finds.

  Only the last step of the contracted axis writes the tile back, and the tiles of the 8 × 8 row and column blocks
  cover the 8192 × 16384 array: entry `(r, o)` is written by the point of row block `r / 1024`, column block `o / 2048`,
  last step, and what that point leaves there is the finished entry for row `r` and output channel `o`. The program's
  result is this array with its rows split back into 4 × 2048.
-/
import proofs.«143259_j26182120637007_2_alg».proof.Proof.Accumulate
import Idealize.ShloMosaic.Lib.StableHlo.Run

noncomputable section

namespace Cert.KernelIdeal.Tile

open Idealize.ShloMosaic Idealize.ShloMosaic.TcCoe Idealize.ShloMosaic.ValueIdx Idealize.SL.Sem Cert.KernelIdeal Cert.KernelIdeal.Gen
open Idealize.ShloMosaic.Pipeline (Dat)
open QuantLinear

variable (m : (ℓ : Loc nD τ sig) → Buf (Elt Ideal) ℓ) (ρ : Dev nD → PrngReg)

/-- The finished layer on the flattened rows: entry `(r, o)`. -/
def outArr (c : Dev nD) : (⟨2, ![8192, 16384]⟩ : Shape).Idx → EReal :=
  fun i => finalAt (arrX m c) (arrW m c) (arrS m c) (arrB m c) (i 0) (i 1)

/-- A point of the last step writes back its tile of the finished layer. -/
theorem flushed_eq (c : Dev nD) (t : Fin cfg0.N) (hf : (cfg0.win 4).flush t = true) :
    (dats m 0 c).flushed 4 t = ((cfg0.win 4).blk t).view.read (Elt Ideal) (outArr m c) := by
  have h3 : t.val % 4 = 3 := (flush0_4 t).mp hf
  have hN : t.val < 256 := lt_of_lt_of_eq t.isLt (show cfg0.N = 256 from N_0)
  obtain ⟨-, -, -, -, -, -, -, -, e0, e1⟩ := idx_facts t
  show (cfg0.win 4).cut (grid0.coords t) ((dats m 0 c).after 4 t) = _
  rw [after0_4]
  funext j
  obtain ⟨p, q, rfl⟩ : ∃ (p : Fin 1024) (q : Fin 2048), j = ix2 p q := ⟨j 0, j 1, eq_ix2 j⟩
  rw [View.read_apply]
  show outsAt0 m c t.val t.isLt (ix2 p q) = outArr m c (((cfg0.win 4).blk t).view.emb (ix2 p q))
  have hp := p.isLt
  have hq := q.isLt
  have key := outsAt_eq m c t.val t.isLt p q ⟨1024 * (t.val / 32) + p.val, by omega⟩ ⟨2048 * (t.val / 4 % 8) + q.val, by omega⟩ rfl rfl
  rw [if_pos h3] at key
  refine key.trans ?_
  unfold outArr
  refine congrArg₂ (finalAt (arrX m c) (arrW m c) (arrS m c) (arrB m c)) (Fin.ext ?_) (Fin.ext ?_)
  · show 1024 * (t.val / 32) + p.val = win0_4.index t 0 * 1024 + 1 * p.val
    rw [e0]; omega
  · show 2048 * (t.val / 4 % 8) + q.val = win0_4.index t 1 * 2048 + 1 * q.val
    rw [e1]; omega

/-- An entry of the array is in point `t`'s tile iff each coordinate is in the tile's range on its axis. -/
theorem mem_blk (t : Fin cfg0.N) (i : S8192x16384.Idx) :
    i ∈ ((cfg0.win 4).blk t).view.set ↔ ∀ a : Fin 2, win0_4.index t a * S1024x2048.size a ≤ (i a).val ∧ (i a).val < win0_4.index t a * S1024x2048.size a + S1024x2048.size a := by
  show i ∈ ((View.whole main_v5).slice (win0_4.rect t)).set ↔ _
  rw [View.set_slice_whole, Rect.mem_set_unit]
  exact Iff.rfl

/-- Every entry of the array is in the tile of some point of the last step. -/
theorem cover (i : S8192x16384.Idx) : ∃ t : Fin cfg0.N, (cfg0.win 4).flush t = true ∧ i ∈ ((cfg0.win 4).blk t).view.set := by
  have hi0 : (i 0).val < 8192 := (i 0).isLt
  have hi1 : (i 1).val < 16384 := (i 1).isLt
  have hN : cfg0.N = 256 := N_0
  let t : Fin cfg0.N := ⟨((i 0).val / 1024 * 8 + (i 1).val / 2048) * 4 + 3, by rw [hN]; omega⟩
  have ht : t.val = ((i 0).val / 1024 * 8 + (i 1).val / 2048) * 4 + 3 := rfl
  obtain ⟨-, -, -, -, -, -, -, -, e0, e1⟩ := idx_facts t
  refine ⟨t, (flush0_4 t).mpr (by omega), ?_⟩
  rw [mem_blk]
  intro a
  match a with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 2048 ≤ (i 1).val ∧ (i 1).val < win0_4.index t (1 : Fin 2) * 2048 + 2048
    rw [e1]; omega

/-- So the region's output array ends holding the finished layer. -/
theorem final (c : Dev nD) : (dats m 0 c).arrAt 4 cfg0.N = outArr m c :=
  (dats m 0 c).arrAt_eq_of_cover 4 (outArr m c) (flushed_eq m c) cover

/-- The program's result: the finished layer with its 8192 rows split into 4 × 2048. -/
def result (c : Dev nD) : S4x2048x16384.Idx → EReal :=
  shapeCast S4x2048x16384 (outArr m c) Facts₀.shapeCasts_S8192x16384_S4x2048x16384

/-- The host line after the region reshapes the region's output array. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = outArr m c :=
    (Pipeline.withArrays_arr spec0 launch0.win.arr_inj c _ _ 4).trans (final m c)
  rw [e]
  rfl

/-- The run, read: the result holds the finished layer with its rows split, and the arguments are unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The arrays the region finds are the host's re-layouts of the arguments: the activations with their leading axes
    merged (and narrowed, which changes nothing here), the weights narrowed, the scales and biases as one row each. -/
theorem arrX_eq (c : Dev nD) : arrX m c
    = (truncf (F := Ideal) .bf16 (shapeCast S8192x4096 (m ((c.tc : Thread nD τ).loc main_arg0)) Facts₀.shapeCasts_S4x2048x4096_S8192x4096 : FVec Ideal S8192x4096 .f32)
        Facts₀.bitsLt_bf16_f32 : FVec Ideal S8192x4096 .bf16) := by
  show StableHlo.after hostOps0 (fun b => m (c, b)) (Proc.devRef .tc main_v1) = _
  after_results
  rfl

theorem arrW_eq (c : Dev nD) : arrW m c
    = (truncf (F := Ideal) .bf16 (m ((c.tc : Thread nD τ).loc main_arg1) : FVec Ideal S16384x4096 .f32) Facts₀.bitsLt_bf16_f32 : FVec Ideal S16384x4096 .bf16) := by
  show StableHlo.after hostOps0 (fun b => m (c, b)) (Proc.devRef .tc main_v2) = _
  after_results

theorem arrS_eq (c : Dev nD) : arrS m c
    = shapeCast S1x16384 (m ((c.tc : Thread nD τ).loc main_arg2)) Facts₀.shapeCasts_S16384_S1x16384 := by
  show StableHlo.after hostOps0 (fun b => m (c, b)) (Proc.devRef .tc main_v3) = _
  after_results
  rfl

theorem arrB_eq (c : Dev nD) : arrB m c
    = shapeCast S1x16384 (m ((c.tc : Thread nD τ).loc main_arg3)) Facts₀.shapeCasts_S16384_S1x16384 := by
  show StableHlo.after hostOps0 (fun b => m (c, b)) (Proc.devRef .tc main_v4) = _
  after_results
  rfl

end Cert.KernelIdeal.Tile

end
-- ==== Proof.RefSide.lean ====
/-
  The reference, entry by entry: dequantize, contract, add the bias.

  The reference multiplies every weight by the scale of its output channel, contracts the activations with the scaled
  weights along the input features, and adds the bias of the output channel: at batch `a`, position `s` and output
  channel `o` it is the sum over `k` of `x (a, s, k) · (w (o, k) · scale o)`, plus `bias o`.
-/
import proofs.«143259_j26182120637007_2_alg».proof.Proof.Gen.ReferenceIdeal.Read

noncomputable section

namespace Cert.ReferenceIdeal.Layer

open Cert.ReferenceIdeal Cert.ReferenceIdeal.Gen Cert.ReferenceIdeal.Read Idealize.ShloMosaic Idealize.ShloMosaic.ValueIdx

theorem ref_apply (x : (⟨S4x2048x4096, .f32⟩ : BufTy).Contents (Elt Ideal)) (w : (⟨S16384x4096, .f32⟩ : BufTy).Contents (Elt Ideal))
    (s b : (⟨S16384, .f32⟩ : BufTy).Contents (Elt Ideal)) (a : Fin 4) (t : Fin 2048) (o : Fin 16384) :
    val_main_v6 (F := Ideal) x w s b (ix3 a t o)
      = (∑ k : Fin 4096, x (ix3 a t k) * (w (ix2 o k) * s (ix1 o))) + b (ix1 o) := by
  have e3l : ∀ k : Fin 4096, lidx_main_v3 (ix3 a t o) k = ix3 a t k := fun k => funext fun d => by
    match d with
    | ⟨0, _⟩ => rfl
    | ⟨1, _⟩ => rfl
    | ⟨2, _⟩ => rfl
  have e3r : ∀ k : Fin 4096, ridx_main_v3 (ix3 a t o) k = ix2 o k := fun k => funext fun d => by
    match d with
    | ⟨0, _⟩ => rfl
    | ⟨1, _⟩ => rfl
  have e1 : ∀ k : Fin 4096, idx_main_v1 (ix2 o k) = ix2 o (0 : Fin 1) := fun k => funext fun d => by
    match d with
    | ⟨0, _⟩ => rfl
    | ⟨1, _⟩ => rfl
  have e0 : idx_main_v0 (ix2 o (0 : Fin 1)) = ix1 o := funext fun d => by
    match d with
    | ⟨0, _⟩ => rfl
  have e5 : idx_main_v5 (ix3 a t o) = ix3 (0 : Fin 1) (0 : Fin 1) o := funext fun d => by
    match d with
    | ⟨0, _⟩ => rfl
    | ⟨1, _⟩ => rfl
    | ⟨2, _⟩ => rfl
  have e4 : idx_main_v4 (ix3 (0 : Fin 1) (0 : Fin 1) o) = ix1 o := funext fun d => by
    match d with
    | ⟨0, _⟩ => rfl
  rw [val_main_v6_apply, val_main_v3_apply, val_main_v5_apply, val_main_v4_apply, e5, e4]
  simp only [e3l, e3r, val_main_v2_apply, val_main_v1_apply, val_main_v0_apply, e1, e0]
  rfl

end Cert.ReferenceIdeal.Layer

end
-- ==== Proof.Finite.lean ====
/-
  The precondition, read back: every entry of the four inputs is a real number.

  The precondition compares the absolute value of every entry of every input with +∞ and asks that all comparisons
  hold. Over the extended reals the absolute value of `x` is `max x (-x)`, which is +∞ exactly at the two infinities, so
  an entry that passes the comparison is a real number.
-/
import proofs.«143259_j26182120637007_2_alg».proof.Pre_finite_inputs
import Idealize.ShloMosaic.PureOps.Ideal
import Idealize.ShloMosaic.Lib.ReduceAll
import Idealize.ShloMosaic.Lib.ValueIdx

noncomputable section

namespace Cert.Pre_finite_inputs.Finite

open Idealize.ShloMosaic Cert.Pre_finite_inputs

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Facts]
open Facts

instance : Subsingleton S_.Idx := ⟨fun a b => funext fun d => d.elim0⟩

/-- Under the precondition every entry of every input is a real number. -/
theorem entries_real (a0 : FVec Ideal S4x2048x4096 .f32) (a1 : FVec Ideal S16384x4096 .f32) (a2 a3 : FVec Ideal S16384 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨fun i => real_of_abs_lt_top _ (Host.reduce_andi_all _ _ _ _ _ h0' i),
    fun i => real_of_abs_lt_top _ (Host.reduce_andi_all _ _ _ _ _ h1 i),
    fun i => real_of_abs_lt_top _ (Host.reduce_andi_all _ _ _ _ _ h2 i),
    fun i => real_of_abs_lt_top _ (Host.reduce_andi_all _ _ _ _ _ h3 i)⟩

end Cert.Pre_finite_inputs.Finite

end
-- ==== Proof.Regroup.lean ====
/-
  Scaling after the contraction against dequantizing before it.

  The kernel's finished entry for row `r` and output channel `o` is `(Σ_k X (r, k) · W (o, k)) · S o + B o`; the reference's
  is `Σ_k x (a, t, k) · (w (o, k) · s o) + b o`, where row `r = 2048 · a + t` of the flattened activations `X` is row
  `(a, t)` of `x`, and `W`, `S`, `B` hold the entries of `w`, `s`, `b`. The two agree when the activations, the weights and
  the scales are real numbers: the scale then moves across the finite sum by distributivity. The bias is added last on
  both sides and may be any extended real.
-/
import proofs.«143259_j26182120637007_2_alg».proof.Proof.TileSums

noncomputable section

namespace QuantLinear

open Idealize.ShloMosaic Idealize.ShloMosaic.ValueIdx ScaledSum

theorem finalAt_eq_dequantized (X : (⟨2, ![8192, 4096]⟩ : Shape).Idx → EReal) (W : (⟨2, ![16384, 4096]⟩ : Shape).Idx → EReal)
    (S B : (⟨2, ![1, 16384]⟩ : Shape).Idx → EReal)
    (x : (⟨3, ![4, 2048, 4096]⟩ : Shape).Idx → EReal) (w : (⟨2, ![16384, 4096]⟩ : Shape).Idx → EReal)
    (s b : (⟨1, ![16384]⟩ : Shape).Idx → EReal)
    (hx : ∀ i, ∃ v : ℝ, x i = (v : EReal)) (hw : ∀ i, ∃ v : ℝ, w i = (v : EReal)) (hs : ∀ i, ∃ v : ℝ, s i = (v : EReal))
    (a : Fin 4) (t : Fin 2048) (o : Fin 16384) (r : Fin 8192)
    (hX : ∀ k : Fin 4096, X (ix2 r k) = x (ix3 a t k)) (hW : ∀ k : Fin 4096, W (ix2 o k) = w (ix2 o k))
    (hS : S (ix2 (0 : Fin 1) o) = s (ix1 o)) (hB : B (ix2 (0 : Fin 1) o) = b (ix1 o)) :
    finalAt X W S B r o = (∑ k : Fin 4096, x (ix3 a t k) * (w (ix2 o k) * s (ix1 o))) + b (ix1 o) := by
  unfold finalAt term
  rw [hS, hB]
  refine congrArg (· + b (ix1 o)) ?_
  rw [Finset.sum_congr rfl fun k _ => show X (ix2 r k) * W (ix2 o k) = x (ix3 a t k) * w (ix2 o k) by rw [hX k, hW k]]
  exact scale_ereal Finset.univ (fun k => x (ix3 a t k)) (fun k => w (ix2 o k)) (s (ix1 o))
    (fun k => hx _) (fun k => hw _) (hs _)

end QuantLinear

end
-- ==== Proof.LibMergeForms.lean ====
/-
  Reshapes that merge or split the two leading axes, and a bias row copied down the rows, read at an index by
  coordinates.

  A reshape keeps the row-major position of every entry. Merging the leading axes `a, b` of an array into one axis
  of extent `a · b` sends the entry `(r, k, …)` to row `r · b + k`; splitting undoes it. A vector `[k]` laid out as
  one row `[1, k]` and copied to every row of `[R, k]` reads, at `(q, o)`, the vector at `o`.
-/
import Idealize.ShloMosaic.Lib.Pipeline.Value
import Idealize.ShloMosaic.Lib.ValueIdx
import Idealize.ShloMosaic.Lib.ValueLayout

noncomputable section

namespace Cert.PointConv

open Idealize.ShloMosaic Idealize.ShloMosaic.ValueIdx

variable {α : Type}

/-- `[a, b, c]` reshaped to `[m, c]` (`m = a · b`): row `r · b + k` at column `o` is the entry `(r, k, o)`. -/
theorem shapeCast_abc_mc_apply {a b c m : Nat} (x : (⟨3, ![a, b, c]⟩ : Shape).Idx → α)
    (h : (⟨3, ![a, b, c]⟩ : Shape).ShapeCasts ⟨2, ![m, c]⟩) (r : Fin a) (k : Fin b) (o : Fin c) (q : Fin m)
    (hq : q.val = r.val * b + k.val) : shapeCast ⟨2, ![m, c]⟩ x h (ix2 q o) = x (ix3 r k o) :=
  shapeCast_apply x h _ _ (by
    rw [Shape.rowMajor_val_three, Shape.rowMajor_val_two]
    show (r.val * b + k.val) * c + o.val = q.val * c + o.val
    rw [hq])

/-- `[m, c]` reshaped to `[a, b, c]` (`m = a · b`): the entry `(r, k, o)` is row `r · b + k` at column `o`. -/
theorem shapeCast_mc_abc_apply {a b c m : Nat} (x : (⟨2, ![m, c]⟩ : Shape).Idx → α)
    (h : (⟨2, ![m, c]⟩ : Shape).ShapeCasts ⟨3, ![a, b, c]⟩) (r : Fin a) (k : Fin b) (o : Fin c) (q : Fin m)
    (hq : q.val = r.val * b + k.val) : shapeCast ⟨3, ![a, b, c]⟩ x h (ix3 r k o) = x (ix2 q o) :=
  shapeCast_apply x h _ _ (by
    rw [Shape.rowMajor_val_three, Shape.rowMajor_val_two]
    show q.val * c + o.val = (r.val * b + k.val) * c + o.val
    rw [hq])

/-- `[a, b, c, d]` reshaped to `[m, c, d]` (`m = a · b`): the entry `(r · b + k, i, j)` is the entry `(r, k, i, j)`. -/
theorem shapeCast_abcd_mcd_apply {a b c d m : Nat} (x : (⟨4, ![a, b, c, d]⟩ : Shape).Idx → α)
    (h : (⟨4, ![a, b, c, d]⟩ : Shape).ShapeCasts ⟨3, ![m, c, d]⟩) (r : Fin a) (k : Fin b) (i : Fin c) (j : Fin d) (q : Fin m)
    (hq : q.val = r.val * b + k.val) : shapeCast ⟨3, ![m, c, d]⟩ x h (ix3 q i j) = x (ix4 r k i j) :=
  shapeCast_apply x h _ _ (by
    rw [Shape.rowMajor_val_four, Shape.rowMajor_val_three]
    show ((r.val * b + k.val) * c + i.val) * d + j.val = (q.val * c + i.val) * d + j.val
    rw [hq])

/-- A vector `[k]` laid out as the row `[1, k]` and copied to every row of `[R, k]`: at `(q, o)` it is the vector at `o`. -/
theorem rowBias_apply {R k : Nat} (b : (⟨1, ![k]⟩ : Shape).Idx → α) (h1 : (⟨1, ![k]⟩ : Shape).ShapeCasts ⟨2, ![1, k]⟩)
    (h2 : (⟨2, ![1, k]⟩ : Shape).Broadcasts ⟨2, ![R, k]⟩) (q : Fin R) (o : Fin k) :
    broadcastTo ⟨2, ![R, k]⟩ (shapeCast ⟨2, ![1, k]⟩ b h1) h2 (ix2 q o) = b (ix1 o) :=
  (broadcastTo_1b_ab_apply _ h2 q o).trans (shapeCast_a_1a_apply b h1 0 o)

end Cert.PointConv

end
-- ==== Proof.Join.lean ====
/-
  The kernel's result is the reference's function of the arguments.

  Entry `(a, t, o)` of the kernel's result is the finished entry of row `2048 · a + t` of the flattened activations and
  output channel `o`; read through the host's re-layouts of the arguments, and with the activations, weights and
  scales real numbers (the precondition), it is the reference's entry: scaling the contraction equals contracting with
  the scaled weights.
-/
import proofs.«143259_j26182120637007_2_alg».proof.Proof.KernelValue
import proofs.«143259_j26182120637007_2_alg».proof.Proof.RefSide
import proofs.«143259_j26182120637007_2_alg».proof.Proof.Finite
import proofs.«143259_j26182120637007_2_alg».proof.Proof.Regroup
import proofs.«143259_j26182120637007_2_alg».proof.Proof.LibMergeForms
import Idealize.ShloMosaic.Lib.ValueLayout

noncomputable section

namespace Cert.KernelIdeal.Tile

open Idealize.ShloMosaic Idealize.ShloMosaic.TcCoe Idealize.ShloMosaic.ValueIdx Idealize.SL.Sem Cert.KernelIdeal Cert.KernelIdeal.Gen
open QuantLinear

variable (m : (ℓ : Loc nD τ sig) → Buf (Elt Ideal) ℓ)

theorem result_eq_reference [Cert.Pre_finite_inputs.Facts] (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    result m c = Cert.ReferenceIdeal.Read.val_main_v6 (F := Ideal) (m ((c.tc : Thread nD τ).loc main_arg0))
      (m ((c.tc : Thread nD τ).loc main_arg1)) (m ((c.tc : Thread nD τ).loc main_arg2)) (m ((c.tc : Thread nD τ).loc main_arg3)) := by
  obtain ⟨hx, hw, hs, -⟩ := Cert.Pre_finite_inputs.Finite.entries_real _ _ _ _ hpre
  funext i
  obtain ⟨a, t, o, rfl⟩ : ∃ (a : Fin 4) (t : Fin 2048) (o : Fin 16384), i = ix3 a t o := ⟨i 0, i 1, i 2, eq_ix3 i⟩
  rw [Cert.ReferenceIdeal.Layer.ref_apply]
  have ha := a.isLt
  have ht := t.isLt
  let r : Fin 8192 := ⟨a.val * 2048 + t.val, by omega⟩
  unfold result
  refine (Cert.PointConv.shapeCast_mc_abc_apply (outArr m c) _ a t o r rfl).trans ?_
  show finalAt (arrX m c) (arrW m c) (arrS m c) (arrB m c) r o = _
  refine finalAt_eq_dequantized _ _ _ _ _ _ _ _ hx hw hs a t o r ?_ ?_ ?_ ?_
  · intro k
    rw [arrX_eq]
    exact Cert.PointConv.shapeCast_abc_mc_apply _ _ a t k r rfl
  · intro k
    rw [arrW_eq]
    rfl
  · rw [arrS_eq]
    exact shapeCast_a_1a_apply _ _ 0 o
  · rw [arrB_eq]
    exact shapeCast_a_1a_apply _ _ 0 o

end Cert.KernelIdeal.Tile

end
-- ==== Proof.lean ====
/-
  A quantized linear layer: the activations, flattened to 8192 rows of 4096 features, are contracted with 16384 rows
  of quantized weights; each output channel is then scaled by its own scale and shifted by its own bias. The kernel
  tiles the output into 1024 × 2048 tiles, visits the contracted axis in four blocks of 1024, accumulates the blocks'
  products in the output tile and applies scale and bias at the last block. The reference scales every weight first and
  contracts once. Over the extended reals, with finite inputs, both compute for batch `a`, position `t`, channel `o` the
  number `Σ_k x (a, t, k) · w (o, k) · scale o + bias o`: the order in which the blocks are added does not matter, and the
  scale moves across the finite sum of real numbers by distributivity.

  The three frames are the generated runs. The idealized kernel is the kernel's own text, so nothing was rewritten.
  The value claim joins the kernel's result, read off its frame run tile by tile, to the reference's run.
-/
import proofs.«143259_j26182120637007_2_alg».proof.Defs
import proofs.«143259_j26182120637007_2_alg».proof.Proof.Gen.Kernel
import proofs.«143259_j26182120637007_2_alg».proof.Proof.Gen.Kernel.Skeleton
import proofs.«143259_j26182120637007_2_alg».proof.Proof.Gen.Kernel.Launch
import proofs.«143259_j26182120637007_2_alg».proof.Proof.Gen.Kernel.Points
import proofs.«143259_j26182120637007_2_alg».proof.Proof.Gen.Kernel.Frame
import proofs.«143259_j26182120637007_2_alg».proof.Proof.Gen.KernelIdeal
import proofs.«143259_j26182120637007_2_alg».proof.Proof.Gen.KernelIdeal.Skeleton
import proofs.«143259_j26182120637007_2_alg».proof.Proof.Gen.KernelIdeal.Launch
import proofs.«143259_j26182120637007_2_alg».proof.Proof.Gen.KernelIdeal.Points
import proofs.«143259_j26182120637007_2_alg».proof.Proof.Gen.KernelIdeal.Frame
import proofs.«143259_j26182120637007_2_alg».proof.Proof.Gen.ReferenceIdeal
import proofs.«143259_j26182120637007_2_alg».proof.Proof.Gen.Pre_finite_inputs
import proofs.«143259_j26182120637007_2_alg».proof.Proof.Gen.ReferenceIdeal.Run
import proofs.«143259_j26182120637007_2_alg».proof.Proof.Gen.ReferenceIdeal.Read
import proofs.«143259_j26182120637007_2_alg».proof.Proof.Join
import Idealize.ShloMosaic.Adequacy
import Idealize.ShloMosaic.Init

noncomputable section

namespace Cert.Proof

open Idealize.ShloMosaic Idealize.SL.Sem Cert.Kernel

/-- The kernel as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments the kernel's result and the reference's are the same array. -/
theorem algebraic : Cert.algebraic_KernelIdeal_ReferenceIdeal := by
  intro m ρ m' ρ' hpre hagree
  refine ⟨fun c => Cert.KernelIdeal.Tile.result m c, Cert.KernelIdeal.Tile.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, (hagree c).1, (hagree c).2.1, (hagree c).2.2.1, (hagree c).2.2.2]
  exact (Cert.KernelIdeal.Tile.result_eq_reference m c (hpre c)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
